-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x2048x4096 : Shape := ⟨3, ![8, 2048, 4096]⟩
abbrev S1x256x2048 : Shape := ⟨3, ![1, 256, 2048]⟩
abbrev S1x2048x256 : Shape := ⟨3, ![1, 2048, 256]⟩
abbrev S256x2048 : Shape := ⟨2, ![256, 2048]⟩
abbrev S2048x256 : Shape := ⟨2, ![2048, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x2048x4096, .f32⟩
  | .hbm, ⟨5, _⟩ => ⟨S8x2048x4096, .f32⟩
  | .hbm, ⟨6, _⟩ => ⟨S8x1024x2048, .f32⟩
  | .hbm, ⟨7, _⟩ => ⟨S8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v27 : BitVec 1 := Scalar.cmpi .eq arg2 c15_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  slices_S8x2048x8192_S8x2048x4096_0_0_0 : S8x2048x8192.Slices ![0, 0, 0] S8x2048x4096
  slices_S8x2048x8192_S8x2048x4096_0_0_4096 : S8x2048x8192.Slices ![0, 0, 4096] S8x2048x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S256x2048_S1x256x2048 : S256x2048.ShapeCasts S1x256x2048
  shapeCasts_S8x1024x2048_S8192x2048 : S8x1024x2048.ShapeCasts S8192x2048
  dot_S256x2048_S2048x256_S256x256_1_0_0_1_n_n_wf : DotDims.WF S256x2048 S2048x256 S256x256 [1] [0] [0] [1] [] []
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .f32 = 32 ∨ (Rect.block (s := S8x1024x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x4096.size a
  hwx0_1 : ∀ i : grid0.Coords, EltTy.bits .f32 = 32 ∨ (Rect.block (s := S8x2048x4096) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x4096.size a
  hwx0_2 : ∀ i : grid0.Coords, EltTy.bits .f32 = 32 ∨ (Rect.block (s := S8x2048x4096) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x1024x2048.size a
  hwx0_4 : ∀ i : grid0.Coords, EltTy.bits .f32 = 32 ∨ (Rect.block (s := S8x1024x2048) S1x256x2048.size (cc0_transform_4 i) (hinb0_4 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.LibTileFold.lean ====
import Mathlib.Data.EReal.Basic
import Mathlib.Algebra.BigOperators.Fin
import Mathlib.Tactic

/-!
# Sums accumulated tile by tile, with one term taken back

General facts about finite sums on the extended reals, used to read a column that a kernel carries across a row of
tiles: reset at the first tile, a tile's partial sum added at every tile, one distinguished term subtracted on one
tile. On the extended reals addition is commutative and associative without any finiteness, so the column ends at
the sum of all the partial sums plus the negated term; cancelling that term against its own copy inside the sum is the
one step that needs it finite.
-/

namespace Cert.LibTileFold

open Finset

/-- A column carried across rows of `n` tiles, at the positions below `M`. Position `t` is tile `t % n` of row `t / n`. At the
    first tile of a row the column restarts from `z + T`; at every other tile it gains `T`; on the tile `t % n = t / n` it also
    gains `N` (the negated distinguished term). Then at every position the column is `z` plus the partial sums so far plus,
    once the diagonal tile is passed, `N`. -/
theorem fold_tiles {n : ℕ} (hn : 0 < n) (M : ℕ) (z : EReal) (T : ℕ → ℕ → EReal) (N : ℕ → EReal) (acc : ℕ → EReal)
    (h0 : ∀ t, t < M → t % n = 0 → acc t = (z + T (t / n) 0) + (if t / n = t % n then N (t / n) else 0))
    (hs : ∀ t, t < M → t % n ≠ 0 → acc t = (acc (t - 1) + T (t / n) (t % n)) + (if t / n = t % n then N (t / n) else 0)) :
    ∀ t, t < M → acc t = (z + ∑ k ∈ range (t % n + 1), T (t / n) k) + (if t / n ≤ t % n then N (t / n) else 0) := by
  suffices H : ∀ q r, r < n → n * q + r < M → acc (n * q + r) = (z + ∑ k ∈ range (r + 1), T q k) + (if q ≤ r then N q else 0) by
    intro t ht
    have h := H (t / n) (t % n) (Nat.mod_lt t hn) (by rw [Nat.div_add_mod]; exact ht)
    rwa [Nat.div_add_mod] at h
  intro q r
  induction r with
  | zero =>
    intro _ hM
    have hd : (n * q + 0) / n = q := by rw [Nat.add_zero, Nat.mul_div_cancel_left q hn]
    have hm : (n * q + 0) % n = 0 := by rw [Nat.add_zero, Nat.mul_mod_right]
    rw [h0 _ hM hm, hd, hm]
    simp only [zero_add, range_one, sum_singleton, Nat.le_zero]
  | succ r ih =>
    intro hr hM
    have hr' : r < n := Nat.lt_of_succ_lt hr
    have hM' : n * q + r < M := Nat.lt_of_succ_lt hM
    have hd : (n * q + (r + 1)) / n = q := by rw [Nat.mul_add_div hn, Nat.div_eq_of_lt hr, Nat.add_zero]
    have hm : (n * q + (r + 1)) % n = r + 1 := by rw [Nat.mul_add_mod, Nat.mod_eq_of_lt hr]
    have hp : n * q + (r + 1) - 1 = n * q + r := rfl
    rw [hs _ hM (by rw [hm]; exact Nat.succ_ne_zero r), hd, hm, hp, ih hr' hM', sum_range_succ (fun k => T q k) (r + 1)]
    by_cases hq : q = r + 1
    · have h1 : ¬ q ≤ r := by omega
      have h2 : q ≤ r + 1 := by omega
      rw [if_neg h1, if_pos hq, if_pos h2, add_zero]
      ac_rfl
    · by_cases hle : q ≤ r
      · have h2 : q ≤ r + 1 := by omega
        rw [if_pos hle, if_neg hq, if_pos h2, add_zero]
        ac_rfl
      · have h2 : ¬ q ≤ r + 1 := by omega
        rw [if_neg hle, if_neg hq, if_neg h2, add_zero, add_zero, add_zero]
        ac_rfl

/-- A sum over `m` tiles of `n` is the sum over `m * n`, position `k` of tile `j` being `n * j + k`. -/
theorem sum_tiles {M : Type*} [AddCommMonoid M] (m n : ℕ) (f : ℕ → M) :
    ∑ j ∈ range m, ∑ k ∈ range n, f (n * j + k) = ∑ i ∈ range (m * n), f i := by
  induction m with
  | zero => simp
  | succ m ih =>
    rw [sum_range_succ, ih, Nat.succ_mul, sum_range_add, Nat.mul_comm m n]

/-- A finite term inside a sum cancels against its negation: the sum over all indices plus the negated term at `i` is
    the sum over the other indices. -/
theorem sum_add_neg_eq_sum_erase {ι : Type*} [DecidableEq ι] (s : Finset ι) (f : ι → EReal) {i : ι} (hi : i ∈ s)
    (r : ℝ) (hr : f i = (r : EReal)) : (∑ j ∈ s, f j) + -(f i) = ∑ j ∈ s.erase i, f j := by
  rw [← add_sum_erase s f hi, hr, add_comm ((r : EReal)) _, add_assoc]
  have : ((r : EReal)) + -((r : EReal)) = 0 := by
    rw [← EReal.coe_neg, ← EReal.coe_add, add_neg_cancel, EReal.coe_zero]
  rw [this, add_zero]

end Cert.LibTileFold
-- ==== Proof.Spec.lean ====
import Mathlib.Data.EReal.Basic
import Mathlib.Algebra.BigOperators.Fin
import Idealize.ShloMosaic.PureOps.Ideal
import Idealize.ShloMosaic.Lib.ValueIdx
import proofs.«121033_j25245817766056_1_alg».proof.Proof.LibTileFold

/-!
# The gated two-layer product, entry by entry

For eight independent groups e, rows x[e, t, :] of length 2048, a first weight W[e, :, :] with 8192 columns
(the first 4096 are the gate columns, the last 4096 the up columns) and a second weight D[e, :, :] with 4096 rows:

  out[e, t, h] = ∑ i < 4096, (up[e,t,i] · (gate[e,t,i] · σ(gate[e,t,i]))) · D[e, i, h],
  gate[e,t,i] = ∑ k, x[e,t,k] · W[e,k,i],   up[e,t,i] = ∑ k, x[e,t,k] · W[e,k,4096+i],   σ(g) = 1 / (1 + e^(-g)).

The sum over i may be taken in 16 consecutive tiles of 256, accumulated one tile after the other: on the extended
reals addition is commutative and associative with no finiteness needed, so the running total after the last tile is
the whole sum.
-/

noncomputable section

namespace Cert.GatedProduct

open Idealize.ShloMosaic Idealize.ShloMosaic.ValueIdx Finset

abbrev SX : Shape := ⟨3, ![8, 1024, 2048]⟩
abbrev SW : Shape := ⟨3, ![8, 2048, 8192]⟩
abbrev SD : Shape := ⟨3, ![8, 4096, 2048]⟩

variable (x : SX.Idx → Ideal .f32) (W : SW.Idx → Ideal .f32) (D : SD.Idx → Ideal .f32)

/-- Entry (e, t, i) of the first product: row x[e, t, :] against column W[e, :, i]. -/
def proj (e : Fin 8) (t : Fin 1024) (i : Fin 8192) : EReal :=
  ∑ k : Fin 2048, x (ix3 e t k) * W (ix3 e k i)

/-- Gate column i of the first weight. -/
def gateCol (i : Fin 4096) : Fin 8192 := ⟨i.val, by have := i.isLt; omega⟩
/-- Up column i of the first weight: the gate columns come first. -/
def upCol (i : Fin 4096) : Fin 8192 := ⟨4096 + i.val, by have := i.isLt; omega⟩

/-- The gated activation: up · (gate · σ(gate)). -/
def act (e : Fin 8) (t : Fin 1024) (i : Fin 4096) : EReal :=
  proj x W e t (upCol i) * (proj x W e t (gateCol i) * Ideal.logistic (proj x W e t (gateCol i)))

/-- The whole result at (e, t, h). -/
def outAt (e : Fin 8) (t : Fin 1024) (h : Fin 2048) : EReal :=
  ∑ i : Fin 4096, act x W e t i * D (ix3 e i h)

/-- The whole result as an array. -/
def out : SX.Idx → Ideal .f32 := fun j => outAt x W D (j 0) (j 1) (j 2)

/-- Term i of the sum over the intermediate axis, 0 past its end. -/
def term (e : Fin 8) (t : Fin 1024) (h : Fin 2048) (i : ℕ) : EReal :=
  if hi : i < 4096 then act x W e t ⟨i, hi⟩ * D (ix3 e ⟨i, hi⟩ h) else 0

/-- Tile k's share of the sum: positions 256 k … 256 k + 255. -/
def tileSum (e : Fin 8) (t : Fin 1024) (h : Fin 2048) (k : ℕ) : EReal :=
  ∑ j ∈ range 256, term x W D e t h (256 * k + j)

/-- The running total after tile n. -/
def upTo (e : Fin 8) (t : Fin 1024) (h : Fin 2048) (n : ℕ) : EReal :=
  ∑ k ∈ range (n + 1), tileSum x W D e t h k

theorem upTo_zero (e : Fin 8) (t : Fin 1024) (h : Fin 2048) : upTo x W D e t h 0 = tileSum x W D e t h 0 := by
  unfold upTo
  rw [Nat.zero_add, sum_range_one]

theorem upTo_succ (e : Fin 8) (t : Fin 1024) (h : Fin 2048) (n : ℕ) :
    upTo x W D e t h (n + 1) = upTo x W D e t h n + tileSum x W D e t h (n + 1) := by
  unfold upTo
  exact sum_range_succ _ _

/-- A tile's share, over the tile's 256 positions as a finite type. -/
theorem tileSum_eq (e : Fin 8) (t : Fin 1024) (h : Fin 2048) (k : ℕ) (hk : k < 16) :
    tileSum x W D e t h k = ∑ j : Fin 256, act x W e t ⟨256 * k + j.val, by have := j.isLt; omega⟩
      * D (ix3 e (⟨256 * k + j.val, by have := j.isLt; omega⟩ : Fin 4096) h) := by
  unfold tileSum
  rw [Finset.sum_range]
  refine Finset.sum_congr rfl fun j _ => ?_
  unfold term
  rw [dif_pos (by have := j.isLt; omega)]

/-- After the sixteenth tile the running total is the whole sum. -/
theorem upTo_last (e : Fin 8) (t : Fin 1024) (h : Fin 2048) : upTo x W D e t h 15 = outAt x W D e t h := by
  unfold upTo tileSum
  rw [Cert.LibTileFold.sum_tiles 16 256 (term x W D e t h)]
  show ∑ i ∈ range 4096, term x W D e t h i = _
  rw [Finset.sum_range]
  unfold outAt
  refine Finset.sum_congr rfl fun i _ => ?_
  unfold term
  rw [dif_pos i.isLt]

/-- The f32 word of one is the real one. -/
theorem one_word : Ideal.ofBits .f32 0x3F800000#32 = 1 := by
  simp [Ideal.ofBits, Ideal.ieee, -EReal.coe_mul]; norm_num

end Cert.GatedProduct

end
-- ==== Proof.RefSide.lean ====
import proofs.«121033_j25245817766056_1_alg».proof.Defs
import proofs.«121033_j25245817766056_1_alg».proof.Proof.Gen.ReferenceIdeal.Run
import proofs.«121033_j25245817766056_1_alg».proof.Proof.Gen.ReferenceIdeal.Read
import proofs.«121033_j25245817766056_1_alg».proof.Proof.Spec

/-!
# The reference computes the gated two-layer product

Read one operation at a time, the reference is: the first batched product of the regrouped rows with the first weight,
its two column halves (gate first, up second), the gate half times 1 / (1 + e^(-gate)), the up half times that, and the
second batched product with the second weight. Entry by entry that is the specification's sum.
-/

noncomputable section

namespace Cert.ReferenceIdeal.RefValue

open Idealize.ShloMosaic Idealize.ShloMosaic.ValueIdx Cert.ReferenceIdeal Cert.ReferenceIdeal.Read Cert.GatedProduct

variable (x0 : (⟨S8192x2048, .f32⟩ : BufTy).Contents (Elt Ideal)) (x1 : (⟨S8x2048x8192, .f32⟩ : BufTy).Contents (Elt Ideal))
  (x2 : (⟨S8x4096x2048, .f32⟩ : BufTy).Contents (Elt Ideal))

/-- The first product at (e, t, i) is the specification's row-by-column sum. -/
theorem v1_at (e : Fin 8) (t : Fin 1024) (i : Fin 8192) :
    val_main_v1 (F := Ideal) x0 x1 (ix3 e t i) = proj (val_main_v0 (F := Ideal) x0) x1 e t i := by
  rw [val_main_v1_apply]
  unfold proj
  refine Finset.sum_congr rfl fun k _ => ?_
  have hl : lidx_main_v1 (ix3 e t i) k = ix3 e t k := funext fun a => by
    match a with | ⟨0, _⟩ => rfl | ⟨1, _⟩ => rfl | ⟨2, _⟩ => rfl
  have hr : ridx_main_v1 (ix3 e t i) k = ix3 e k i := funext fun a => by
    match a with | ⟨0, _⟩ => rfl | ⟨1, _⟩ => rfl | ⟨2, _⟩ => rfl
  rw [hl, hr]

/-- Its first column half is the gate. -/
theorem v2_at (e : Fin 8) (t : Fin 1024) (i : Fin 4096) :
    val_main_v2 (F := Ideal) x0 x1 (ix3 e t i) = proj (val_main_v0 (F := Ideal) x0) x1 e t (gateCol i) := by
  rw [val_main_v2_apply]
  have h : idx_main_v2 (ix3 e t i) = ix3 e t (gateCol i) := funext fun a => by
    match a with | ⟨0, _⟩ => rfl | ⟨1, _⟩ => rfl | ⟨2, _⟩ => rfl
  rw [h, v1_at]

/-- Its second column half is the up projection. -/
theorem v3_at (e : Fin 8) (t : Fin 1024) (i : Fin 4096) :
    val_main_v3 (F := Ideal) x0 x1 (ix3 e t i) = proj (val_main_v0 (F := Ideal) x0) x1 e t (upCol i) := by
  rw [val_main_v3_apply]
  have h : idx_main_v3 (ix3 e t i) = ix3 e t (upCol i) := funext fun a => by
    match a with | ⟨0, _⟩ => rfl | ⟨1, _⟩ => rfl | ⟨2, _⟩ => rfl
  rw [h, v1_at]

/-- The product of the up half with the gate half times 1 / (1 + e^(-gate)) is the gated activation. -/
theorem v5_at (e : Fin 8) (t : Fin 1024) (i : Fin 4096) :
    val_main_v5 (F := Ideal) x0 x1 (ix3 e t i) = act (val_main_v0 (F := Ideal) x0) x1 e t i := by
  rw [val_main_v5_apply, val_main_v4_apply, val_main_call0_v5_apply, val_main_call0_v3_apply, val_main_call0_v1_apply,
    val_main_call0_v0_apply, val_main_call0_v4_apply, val_main_call0_v2_apply, val_main_call0_cst_0_apply,
    val_main_call0_cst_apply, v3_at, v2_at]
  unfold act Ideal.logistic
  simp only [Ideal.mulf_def, Ideal.hostDivf_def, Ideal.addf_def, Ideal.hostUnary_exp_def, Ideal.hostNegf_def,
    Ideal.negf_def, Ideal.ofBits_def, one_word]

/-- The second product is the specification's result. -/
theorem v6_eq : val_main_v6 (F := Ideal) x0 x1 x2 = out (val_main_v0 (F := Ideal) x0) x1 x2 := by
  funext i
  obtain ⟨e, t, h, rfl⟩ : ∃ (e : Fin 8) (t : Fin 1024) (h : Fin 2048), i = ix3 e t h := ⟨i 0, i 1, i 2, eq_ix3 i⟩
  rw [val_main_v6_apply]
  show _ = outAt (val_main_v0 (F := Ideal) x0) x1 x2 e t h
  unfold outAt
  refine Finset.sum_congr rfl fun k _ => ?_
  have hl : lidx_main_v6 (ix3 e t h) k = ix3 e t k := funext fun a => by
    match a with | ⟨0, _⟩ => rfl | ⟨1, _⟩ => rfl | ⟨2, _⟩ => rfl
  have hr : ridx_main_v6 (ix3 e t h) k = ix3 e k h := funext fun a => by
    match a with | ⟨0, _⟩ => rfl | ⟨1, _⟩ => rfl | ⟨2, _⟩ => rfl
  rw [hl, hr, v5_at]

end Cert.ReferenceIdeal.RefValue

end
-- ==== Proof.KerPayload.lean ====
import proofs.«121033_j25245817766056_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
# What one grid point adds, entry by entry

On the extended reals the body's second stored value, at row r and column h of the [256, 2048] accumulator, is the
accumulator's previous entry plus the sum over the tile's 256 intermediate positions j of

  (∑ k, x[r,k] · up[k,j]) · ((∑ k, x[r,k] · gate[k,j]) · σ(∑ k, x[r,k] · gate[k,j])) · down[j,h],

the three matrix products into a zero accumulator being plain sums, the changes of float format the identity, and
the leading unit axis of each loaded block dropped. The first stored value is the zero block, and the third is the
accumulator with a leading unit axis added.
-/

noncomputable section

namespace Cert.KernelIdeal.Pay

open Idealize.ShloMosaic Idealize.ShloMosaic.ValueIdx Cert.KernelIdeal Cert.KernelIdeal.Gen

/-! ## The two matrix products' operand indices -/

theorem d1_lhs0 (i : S256x256.Idx) (q : dot_S256x2048_S2048x256_S256x256_1_0_0_1_n_n.contr.Idx) : (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide),
    dif_pos (show (0 : Fin S256x2048.rank) ∈ dot_S256x2048_S2048x256_S256x256_1_0_0_1_n_n.lhsNonContracting by decide)]
  rfl
theorem d1_lhs1 (i : S256x256.Idx) (q : dot_S256x2048_S2048x256_S256x256_1_0_0_1_n_n.contr.Idx) : (dot_S256x2048_S2048x256_S256x256_1_0_0_1_n_n.lhsIdx i q 1).val = (q ⟨0, by decide⟩).val :=
  dot_S256x2048_S2048x256_S256x256_1_0_0_1_n_n.lhsIdx_val_of_single rfl i q
theorem d1_rhs0 (i : S256x256.Idx) (q : dot_S256x2048_S2048x256_S256x256_1_0_0_1_n_n.contr.Idx) : (dot_S256x2048_S2048x256_S256x256_1_0_0_1_n_n.rhsIdx i q 0).val = (q ⟨0, by decide⟩).val :=
  dot_S256x2048_S2048x256_S256x256_1_0_0_1_n_n.rhsIdx_val_of_single rfl i q
theorem d1_rhs1 (i : S256x256.Idx) (q : dot_S256x2048_S2048x256_S256x256_1_0_0_1_n_n.contr.Idx) : (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide),
    dif_pos (show (1 : Fin S2048x256.rank) ∈ dot_S256x2048_S2048x256_S256x256_1_0_0_1_n_n.rhsNonContracting by decide)]
  rfl

theorem d2_lhs0 (i : S256x2048.Idx) (q : dot_S256x256_S256x2048_S256x2048_1_0_0_1_n_n.contr.Idx) : (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide),
    dif_pos (show (0 : Fin S256x256.rank) ∈ dot_S256x256_S256x2048_S256x2048_1_0_0_1_n_n.lhsNonContracting by decide)]
  rfl
theorem d2_lhs1 (i : S256x2048.Idx) (q : dot_S256x256_S256x2048_S256x2048_1_0_0_1_n_n.contr.Idx) : (dot_S256x256_S256x2048_S256x2048_1_0_0_1_n_n.lhsIdx i q 1).val = (q ⟨0, by decide⟩).val :=
  dot_S256x256_S256x2048_S256x2048_1_0_0_1_n_n.lhsIdx_val_of_single rfl i q
theorem d2_rhs0 (i : S256x2048.Idx) (q : dot_S256x256_S256x2048_S256x2048_1_0_0_1_n_n.contr.Idx) : (dot_S256x256_S256x2048_S256x2048_1_0_0_1_n_n.rhsIdx i q 0).val = (q ⟨0, by decide⟩).val :=
  dot_S256x256_S256x2048_S256x2048_1_0_0_1_n_n.rhsIdx_val_of_single rfl i q
theorem d2_rhs1 (i : S256x2048.Idx) (q : dot_S256x256_S256x2048_S256x2048_1_0_0_1_n_n.contr.Idx) : (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide),
    dif_pos (show (1 : Fin S256x2048.rank) ∈ dot_S256x256_S256x2048_S256x2048_1_0_0_1_n_n.rhsNonContracting by decide)]
  rfl

/-- A [256, 2048] by [2048, 256] product into the zero block, at (a, b): the sum over the 2048 inner positions. -/
theorem mm1_at (l : FVec Ideal S256x2048 .bf16) (r : FVec Ideal S2048x256 .bf16) (a b : Fin 256) :
    matmul dot_S256x2048_S2048x256_S256x256_1_0_0_1_n_n none l r (constant (F := Ideal) S256x256 .f32 0x00000000#32) (ix2 a b)
      = ∑ k : Fin 2048, l (ix2 a k) * r (ix2 k b) := by
  show FloatOps.matmul dot_S256x2048_S2048x256_S256x256_1_0_0_1_n_n none l r (constant (F := Ideal) S256x256 .f32 0x00000000#32) (ix2 a b) = _
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 a b) ((contrEquiv1 dot_S256x2048_S2048x256_S256x256_1_0_0_1_n_n 2048 rfl rfl).symm k) = ix2 a k := funext fun c => Fin.ext (by
    match c with
    | ⟨0, _⟩ => exact d1_lhs0 _ _
    | ⟨1, _⟩ => exact (d1_lhs1 _ _).trans hk)
  have er : dot_S256x2048_S2048x256_S256x256_1_0_0_1_n_n.rhsIdx (ix2 a b) ((contrEquiv1 dot_S256x2048_S2048x256_S256x256_1_0_0_1_n_n 2048 rfl rfl).symm k) = ix2 k b := funext fun c => Fin.ext (by
    match c with
    | ⟨0, _⟩ => exact (d1_rhs0 _ _).trans hk
    | ⟨1, _⟩ => exact d1_rhs1 _ _)
  rw [el, er]

/-- A [256, 256] by [256, 2048] product into the zero block, at (a, b): the sum over the 256 inner positions. -/
theorem mm2_at (l : FVec Ideal S256x256 .bf16) (r : FVec Ideal S256x2048 .bf16) (a : Fin 256) (b : Fin 2048) :
    matmul dot_S256x256_S256x2048_S256x2048_1_0_0_1_n_n none l r (constant (F := Ideal) S256x2048 .f32 0x00000000#32) (ix2 a b)
      = ∑ k : Fin 256, l (ix2 a k) * r (ix2 k b) := by
  show FloatOps.matmul dot_S256x256_S256x2048_S256x2048_1_0_0_1_n_n none l r (constant (F := Ideal) S256x2048 .f32 0x00000000#32) (ix2 a b) = _
  rw [Ideal.matmul_constant_zero_apply, ← Equiv.sum_comp (contrEquiv1 dot_S256x256_S256x2048_S256x2048_1_0_0_1_n_n 256 rfl rfl).symm]
  refine Finset.sum_congr rfl fun k _ => ?_
  have hk := contrEquiv1_symm_val dot_S256x256_S256x2048_S256x2048_1_0_0_1_n_n 256 rfl rfl k
  have el : dot_S256x256_S256x2048_S256x2048_1_0_0_1_n_n.lhsIdx (ix2 a b) ((contrEquiv1 dot_S256x256_S256x2048_S256x2048_1_0_0_1_n_n 256 rfl rfl).symm k) = ix2 a k := funext fun c => Fin.ext (by
    match c with
    | ⟨0, _⟩ => exact d2_lhs0 _ _
    | ⟨1, _⟩ => exact (d2_lhs1 _ _).trans hk)
  have er : dot_S256x256_S256x2048_S256x2048_1_0_0_1_n_n.rhsIdx (ix2 a b) ((contrEquiv1 dot_S256x256_S256x2048_S256x2048_1_0_0_1_n_n 256 rfl rfl).symm k) = ix2 k b := funext fun c => Fin.ext (by
    match c with
    | ⟨0, _⟩ => exact (d2_rhs0 _ _).trans hk
    | ⟨1, _⟩ => exact d2_rhs1 _ _)
  rw [el, er]

/-- The logistic function is applied entry by entry. -/
theorem logistic_at {s : Shape} {φ : FTy} (x : FVec Ideal s φ) (i : s.Idx) : logistic x i = Ideal.logistic (x i) := rfl

/-- The zero block. -/
theorem pay1_at (j : S256x2048.Idx) : k0_pay1 (F := Ideal) j = 0 := by
  unfold k0_pay1
  rw [shapeCast_self]
  exact Ideal.ofBits_zero_f32

/-- The accumulator's new entry. -/
theorem pay2_at (v3 : FVec Ideal S1x256x2048 .f32) (v6 v9 : FVec Ideal S1x2048x256 .f32) (v18 : FVec Ideal S1x256x2048 .f32)
    (v22 : FVec Ideal S256x2048 .f32) (r : Fin 256) (h : Fin 2048) :
    k0_pay2 (F := Ideal) v3 v6 v9 v18 v22 (ix2 r h) = v22 (ix2 r h) + ∑ j : Fin 256,
      ((∑ k : Fin 2048, v3 (ix3 0 r k) * v9 (ix3 0 k j))
        * ((∑ k : Fin 2048, v3 (ix3 0 r k) * v6 (ix3 0 k j))
          * Ideal.logistic (∑ k : Fin 2048, v3 (ix3 0 r k) * v6 (ix3 0 k j))))
      * v18 (ix3 0 j h) := by
  unfold k0_pay2
  rw [shapeCast_self]
  refine (addf_apply _ _ _).trans ?_
  refine congrArg (v22 (ix2 r h) + ·) ?_
  refine (mm2_at _ _ r h).trans ?_
  refine Finset.sum_congr rfl fun j _ => ?_
  have hx : ∀ k : Fin 2048, (truncf .bf16 (shapeCast S256x2048 v3 shapeCasts_S1x256x2048_S256x2048) bitsLt_bf16_f32
      : FVec Ideal S256x2048 .bf16) (ix2 r k) = v3 (ix3 0 r k) :=
    fun k => shapeCast_1ab_ab_apply v3 _ r k
  have hw : ∀ (w : FVec Ideal S1x2048x256 .f32) (k : Fin 2048),
      (truncf .bf16 (shapeCast S2048x256 w shapeCasts_S1x2048x256_S2048x256) bitsLt_bf16_f32
        : FVec Ideal S2048x256 .bf16) (ix2 k j) = w (ix3 0 k j) :=
    fun w k => shapeCast_1ab_ab_apply w _ k j
  have hmm : ∀ w : FVec Ideal S1x2048x256 .f32,
      matmul dot_S256x2048_S2048x256_S256x256_1_0_0_1_n_n none
        (truncf .bf16 (shapeCast S256x2048 v3 shapeCasts_S1x256x2048_S256x2048) bitsLt_bf16_f32)
        (truncf .bf16 (shapeCast S2048x256 w shapeCasts_S1x2048x256_S2048x256) bitsLt_bf16_f32)
        (constant (F := Ideal) S256x256 .f32 0x00000000#32) (ix2 r j)
      = ∑ k : Fin 2048, v3 (ix3 0 r k) * w (ix3 0 k j) := fun w =>
    (mm1_at _ _ r j).trans (Finset.sum_congr rfl fun k _ => by rw [hx k, hw w k])
  have hd : shapeCast S256x2048 v18 shapeCasts_S1x256x2048_S256x2048 (ix2 j h) = v18 (ix3 0 j h) :=
    shapeCast_1ab_ab_apply v18 _ j h
  rw [truncf_apply, truncf_apply, mulf_apply, mulf_apply, logistic_at, hmm v9, hmm v6, hd]

/-- The block written back: the accumulator under a leading unit axis. -/
theorem pay3_at (v30 : FVec Ideal S256x2048 .f32) (u : Fin 1) (r : Fin 256) (h : Fin 2048) :
    k0_pay3 (F := Ideal) v30 (ix3 u r h) = v30 (ix2 r h) := by
  unfold k0_pay3
  exact shapeCast_ab_1ab_apply v30 _ u r h

end Cert.KernelIdeal.Pay

end
-- ==== Proof.KerStep.lean ====
import proofs.«121033_j25245817766056_1_alg».proof.Proof.KerPayload
import proofs.«121033_j25245817766056_1_alg».proof.Proof.Spec

/-!
# One grid point adds one tile's share

The grid is 8 × 4 × 16 in row-major order: point n works on group n / 64, on the 256 rows of row tile n / 16 % 4, and on
the 256 intermediate positions of tile n % 16. When the four loaded blocks are the corresponding blocks of the whole
arrays, the accumulator's new entry at (r, h) is its old entry plus the tile's share of the specification's sum for
row (row tile) · 256 + r and column h.
-/

noncomputable section

namespace Cert.GatedProduct

open Idealize.ShloMosaic Idealize.ShloMosaic.ValueIdx

/-- The group grid point n works on. -/
def grp (n : ℕ) (hn : n < 512) : Fin 8 := ⟨n / 64, by omega⟩
/-- Row r of the row tile grid point n works on. -/
def rowAt (n : ℕ) (hn : n < 512) (r : Fin 256) : Fin 1024 := ⟨n / 16 % 4 * 256 + r.val, by have := r.isLt; omega⟩
/-- Position j of the intermediate tile grid point n works on. -/
def midAt (n : ℕ) (j : Fin 256) : Fin 4096 := ⟨256 * (n % 16) + j.val, by have := j.isLt; omega⟩

open Cert.KernelIdeal Cert.KernelIdeal.Gen in
/-- The accumulator's new entry is its old entry plus the tile's share. -/
theorem pay2_tile (X : SX.Idx → Ideal .f32) (W : SW.Idx → Ideal .f32) (D : SD.Idx → Ideal .f32)
    (v3 : FVec Ideal S1x256x2048 .f32) (v6 v9 : FVec Ideal S1x2048x256 .f32) (v18 : FVec Ideal S1x256x2048 .f32)
    (v22 : FVec Ideal S256x2048 .f32) (e : Fin 8) (row : Fin 256 → Fin 1024) (n : ℕ)
    (hb0 : ∀ (r : Fin 256) (k : Fin 2048), v3 (ix3 0 r k) = X (ix3 e (row r) k))
    (hb1 : ∀ (k : Fin 2048) (j : Fin 256), v6 (ix3 0 k j) = W (ix3 e k (gateCol (midAt n j))))
    (hb2 : ∀ (k : Fin 2048) (j : Fin 256), v9 (ix3 0 k j) = W (ix3 e k (upCol (midAt n j))))
    (hb3 : ∀ (j : Fin 256) (h : Fin 2048), v18 (ix3 0 j h) = D (ix3 e (midAt n j) h))
    (r : Fin 256) (h : Fin 2048) :
    k0_pay2 (F := Ideal) v3 v6 v9 v18 v22 (ix2 r h) = v22 (ix2 r h) + tileSum X W D e (row r) h (n % 16) := by
  rw [Cert.KernelIdeal.Pay.pay2_at, tileSum_eq X W D e (row r) h (n % 16) (Nat.mod_lt _ (by decide))]
  refine congrArg (v22 (ix2 r h) + ·) (Finset.sum_congr rfl fun j _ => ?_)
  unfold act proj
  simp only [hb0, hb1, hb2, hb3]
  rfl

end Cert.GatedProduct

end
-- ==== Proof.KerBlocks.lean ====
import proofs.«121033_j25245817766056_1_alg».proof.Proof.Gen.KernelIdeal.Frame
import proofs.«121033_j25245817766056_1_alg».proof.Proof.KerStep
import Idealize.ShloMosaic.Lib.Pipeline.Value
import Idealize.ShloMosaic.Lib.StableHlo.Run
import Idealize.ShloMosaic.Lib.Tactic

/-!
# The blocks a grid point is handed

Before the region the program regroups the rows into [8, 1024, 2048] and cuts the first weight into its gate columns
and its up columns. At grid point n = (group, row tile, intermediate tile) the five windows hold: the 256 rows of the
row tile (all 2048 columns), the tile's 256 gate columns, the tile's 256 up columns (all 2048 rows each), the tile's
256 rows of the second weight, and the row tile's block of the result.
-/

noncomputable section

namespace Cert.KernelIdeal.Blocks

open Idealize.ShloMosaic Idealize.ShloMosaic.TcCoe Idealize.ShloMosaic.Tactic Idealize.ShloMosaic.ValueIdx Idealize.SL.Sem
open Cert.KernelIdeal Cert.KernelIdeal.Gen Cert.GatedProduct

variable (m : (ℓ : Loc nD τ sig) → Buf (Elt Ideal) ℓ)

/-! ## The arrays as the region finds them -/

/-- The regrouped rows. -/
theorem V_v0 (c : Dev nD) : V m c main_v0
    = shapeCast S8x1024x2048 (m ((c : Thread nD τ).loc main_arg0)) shapeCasts_S8192x2048_S8x1024x2048 := by
  show StableHlo.after hostOps0 (fun b => m (c, b)) (Proc.devRef .tc main_v0) = _
  after_results <;> rfl

/-- The gate columns of the first weight. -/
theorem V_v1 (c : Dev nD) : V m c main_v1
    = extractStridedSlice S8x2048x4096 ![0, 0, 0] (m ((c : Thread nD τ).loc main_arg1)) slices_S8x2048x8192_S8x2048x4096_0_0_0 := by
  show StableHlo.after hostOps0 (fun b => m (c, b)) (Proc.devRef .tc main_v1) = _
  after_results <;> rfl

/-- The up columns of the first weight. -/
theorem V_v2 (c : Dev nD) : V m c main_v2
    = extractStridedSlice S8x2048x4096 ![0, 0, 4096] (m ((c : Thread nD τ).loc main_arg1)) slices_S8x2048x8192_S8x2048x4096_0_0_4096 := by
  show StableHlo.after hostOps0 (fun b => m (c, b)) (Proc.devRef .tc main_v2) = _
  after_results <;> rfl

/-- The rows, the first weight and the second weight the specification is read at. -/
abbrev Xs (c : Dev nD) : SX.Idx → Ideal .f32 :=
  shapeCast S8x1024x2048 (m ((c : Thread nD τ).loc main_arg0)) shapeCasts_S8192x2048_S8x1024x2048
abbrev Ws (c : Dev nD) : SW.Idx → Ideal .f32 := m ((c : Thread nD τ).loc main_arg1)
abbrev Ds (c : Dev nD) : SD.Idx → Ideal .f32 := m ((c : Thread nD τ).loc main_arg2)

/-- Gate column i of group e, row k. -/
theorem V_v1_at (c : Dev nD) (e : Fin 8) (k : Fin 2048) (i : Fin 4096) :
    V m c main_v1 (ix3 e k i) = Ws m c (ix3 e k (gateCol i)) := by
  rw [V_v1]
  exact extractStridedSlice_apply ![0, 0, 0] _ slices_S8x2048x8192_S8x2048x4096_0_0_0 (ix3 e k i) (ix3 e k (gateCol i))
    (fun a => match a with
      | ⟨0, _⟩ => by show e.val = 0 + e.val; omega
      | ⟨1, _⟩ => by show k.val = 0 + k.val; omega
      | ⟨2, _⟩ => by show i.val = 0 + i.val; omega)

/-- Up column i of group e, row k. -/
theorem V_v2_at (c : Dev nD) (e : Fin 8) (k : Fin 2048) (i : Fin 4096) :
    V m c main_v2 (ix3 e k i) = Ws m c (ix3 e k (upCol i)) := by
  rw [V_v2]
  exact extractStridedSlice_apply ![0, 0, 4096] _ slices_S8x2048x8192_S8x2048x4096_0_0_4096 (ix3 e k i) (ix3 e k (upCol i))
    (fun a => match a with
      | ⟨0, _⟩ => by show e.val = 0 + e.val; omega
      | ⟨1, _⟩ => by show k.val = 0 + k.val; omega
      | ⟨2, _⟩ => by show 4096 + i.val = 4096 + i.val; rfl)

/-! ## The index maps, decided once over the grid -/

theorem idx_facts : ∀ t : Fin cfg0.N,
    win0_0.index t (0 : Fin 3) = t.val / 64 ∧ win0_0.index t (1 : Fin 3) = t.val / 16 % 4 ∧ win0_0.index t (2 : Fin 3) = 0
    ∧ win0_1.index t (0 : Fin 3) = t.val / 64 ∧ win0_1.index t (1 : Fin 3) = 0 ∧ win0_1.index t (2 : Fin 3) = t.val % 16
    ∧ win0_2.index t (0 : Fin 3) = t.val / 64 ∧ win0_2.index t (1 : Fin 3) = 0 ∧ win0_2.index t (2 : Fin 3) = t.val % 16
    ∧ win0_3.index t (0 : Fin 3) = t.val / 64 ∧ win0_3.index t (1 : Fin 3) = t.val % 16 ∧ win0_3.index t (2 : Fin 3) = 0
    ∧ win0_4.index t (0 : Fin 3) = t.val / 64 ∧ win0_4.index t (1 : Fin 3) = t.val / 16 % 4 ∧ win0_4.index t (2 : Fin 3) = 0 :=
  (by decide +kernel : ∀ t : Fin grid0.N, _)

/-! ## The input blocks at an index -/

/-- The rows' block. -/
theorem blk0_at (c : Dev nD) (t : Fin cfg0.N) (hN : t.val < 512) (u : Fin 1) (r : Fin 256) (k : Fin 2048) :
    (iblk m c 0 t : Vec Ideal S1x256x2048 .f32) (ix3 u r k) = Xs m c (ix3 (grp t.val hN) (rowAt t.val hN r) k) := by
  unfold iblk
  rw [View.read_apply]
  show V m c main_v0 (((cfg0.win 0).blk t).view.emb (ix3 u r k)) = _
  refine (congrArg (V m c main_v0) (funext fun a => Fin.ext ?_)).trans (congrFun (V_v0 m c) _)
  obtain ⟨e0, e1, e2, -⟩ := idx_facts t
  have hu := u.isLt
  match a with
  | ⟨0, _⟩ => show win0_0.index t (0 : Fin 3) * 1 + 1 * u.val = t.val / 64; omega
  | ⟨1, _⟩ => show win0_0.index t (1 : Fin 3) * 256 + 1 * r.val = t.val / 16 % 4 * 256 + r.val; omega
  | ⟨2, _⟩ => show win0_0.index t (2 : Fin 3) * 2048 + 1 * k.val = k.val; omega

/-- The gate columns' block. -/
theorem blk1_at (c : Dev nD) (t : Fin cfg0.N) (hN : t.val < 512) (u : Fin 1) (k : Fin 2048) (j : Fin 256) :
    (iblk m c 1 t : Vec Ideal S1x2048x256 .f32) (ix3 u k j) = Ws m c (ix3 (grp t.val hN) k (gateCol (midAt t.val j))) := by
  unfold iblk
  rw [View.read_apply]
  show V m c main_v1 (((cfg0.win 1).blk t).view.emb (ix3 u k j)) = _
  refine (congrArg (V m c main_v1) (funext fun a => Fin.ext ?_)).trans (V_v1_at m c (grp t.val hN) k (midAt t.val j))
  obtain ⟨-, -, -, e0, e1, e2, -⟩ := idx_facts t
  have hu := u.isLt
  match a with
  | ⟨0, _⟩ => show win0_1.index t (0 : Fin 3) * 1 + 1 * u.val = t.val / 64; omega
  | ⟨1, _⟩ => show win0_1.index t (1 : Fin 3) * 2048 + 1 * k.val = k.val; omega
  | ⟨2, _⟩ => show win0_1.index t (2 : Fin 3) * 256 + 1 * j.val = 256 * (t.val % 16) + j.val; omega

/-- The up columns' block. -/
theorem blk2_at (c : Dev nD) (t : Fin cfg0.N) (hN : t.val < 512) (u : Fin 1) (k : Fin 2048) (j : Fin 256) :
    (iblk m c 2 t : Vec Ideal S1x2048x256 .f32) (ix3 u k j) = Ws m c (ix3 (grp t.val hN) k (upCol (midAt t.val j))) := by
  unfold iblk
  rw [View.read_apply]
  show V m c main_v2 (((cfg0.win 2).blk t).view.emb (ix3 u k j)) = _
  refine (congrArg (V m c main_v2) (funext fun a => Fin.ext ?_)).trans (V_v2_at m c (grp t.val hN) k (midAt t.val j))
  obtain ⟨-, -, -, -, -, -, e0, e1, e2, -⟩ := idx_facts t
  have hu := u.isLt
  match a with
  | ⟨0, _⟩ => show win0_2.index t (0 : Fin 3) * 1 + 1 * u.val = t.val / 64; omega
  | ⟨1, _⟩ => show win0_2.index t (1 : Fin 3) * 2048 + 1 * k.val = k.val; omega
  | ⟨2, _⟩ => show win0_2.index t (2 : Fin 3) * 256 + 1 * j.val = 256 * (t.val % 16) + j.val; omega

/-- The second weight's block. -/
theorem blk3_at (c : Dev nD) (t : Fin cfg0.N) (hN : t.val < 512) (u : Fin 1) (j : Fin 256) (h : Fin 2048) :
    (iblk m c 3 t : Vec Ideal S1x256x2048 .f32) (ix3 u j h) = Ds m c (ix3 (grp t.val hN) (midAt t.val j) h) := by
  unfold iblk
  rw [View.read_apply]
  show V m c main_arg2 (((cfg0.win 3).blk t).view.emb (ix3 u j h)) = _
  refine (congrArg (V m c main_arg2) (funext fun a => Fin.ext ?_)).trans (congrFun (V_main_arg2 m c) _)
  obtain ⟨-, -, -, -, -, -, -, -, -, e0, e1, e2, -⟩ := idx_facts t
  have hu := u.isLt
  match a with
  | ⟨0, _⟩ => show win0_3.index t (0 : Fin 3) * 1 + 1 * u.val = t.val / 64; omega
  | ⟨1, _⟩ => show win0_3.index t (1 : Fin 3) * 256 + 1 * j.val = 256 * (t.val % 16) + j.val; omega
  | ⟨2, _⟩ => show win0_3.index t (2 : Fin 3) * 2048 + 1 * h.val = h.val; omega

/-! ## The result's block, read off a whole array -/

/-- Entry (r, h) of the result's block at grid point t is entry (group, row tile · 256 + r, h) of the array. -/
theorem blk4_read (t : Fin cfg0.N) (hN : t.val < 512) (G : SX.Idx → Ideal .f32) (u : Fin 1) (r : Fin 256) (h : Fin 2048) :
    ((cfg0.win 4).blk t).view.read (Elt Ideal) G (ix3 u r h) = G (ix3 (grp t.val hN) (rowAt t.val hN r) h) := by
  rw [View.read_apply]
  show G (((cfg0.win 4).blk t).view.emb (ix3 u r h)) = _
  refine congrArg G (funext fun a => Fin.ext ?_)
  obtain ⟨-, -, -, -, -, -, -, -, -, -, -, -, e0, e1, e2⟩ := idx_facts t
  have hu := u.isLt
  match a with
  | ⟨0, _⟩ => show win0_4.index t (0 : Fin 3) * 1 + 1 * u.val = t.val / 64; omega
  | ⟨1, _⟩ => show win0_4.index t (1 : Fin 3) * 256 + 1 * r.val = t.val / 16 % 4 * 256 + r.val; omega
  | ⟨2, _⟩ => show win0_4.index t (2 : Fin 3) * 2048 + 1 * h.val = h.val; omega

end Cert.KernelIdeal.Blocks

end
-- ==== Proof.KerPieces.lean ====
import proofs.«121033_j25245817766056_1_alg».proof.Proof.Gen.KernelIdeal.Frame
import Idealize.ShloMosaic.Lib.Pipeline.Value
import Idealize.ShloMosaic.Lib.Tactic

/-!
# What each kind of grid point leaves behind

The grid's last axis walks the 16 tiles of the intermediate axis. At a first tile the body zeroes the accumulator and
adds its tile's share; at a later tile it adds its share to what the tile before left; at the last tile it also copies
the accumulator, under a leading unit axis, into the block that is written back.
-/

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first tile: the accumulator restarts from the zero block and gains the tile's share. -/
theorem sout_A (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i)
    (x0 : Vec F S1x256x2048 .f32) (x1 : Vec F S1x2048x256 .f32) (x2 : Vec F S1x2048x256 .f32) (x3 : Vec F S1x256x2048 .f32) :
    sout0_A_0 c i arg3 harg3 arg4 harg4 arg5 harg5 arg6 harg6 arg7 harg7 arg8 harg8 hc0 hc1 x0 x1 x2 x3 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S256x2048) hz2]
  simp only [View.readAt_eq_ld, harg3.read_unread, harg4.read_unread, harg5.read_unread, harg6.read_unread, harg8.read_unread,
    View.ld_unit_zero (S := S1x256x2048) hz3, View.ld_unit_zero (S := S1x2048x256) hz3, View.ld_unit_zero (S := S256x2048) hz2,
    View.readCov_unit_zero (S := S256x2048) _ hz2]

/-- A later tile that is not the last: the accumulator gains the tile's share. -/
theorem sout_B (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i)
    (x0 : Vec F S1x256x2048 .f32) (x1 : Vec F S1x2048x256 .f32) (x2 : Vec F S1x2048x256 .f32) (x3 : Vec F S1x256x2048 .f32) (xs0 : Vec F S256x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg6.read_unread, harg8.read_unread,
    View.ld_unit_zero (S := S1x256x2048) hz3, View.ld_unit_zero (S := S1x2048x256) hz3, View.ld_unit_zero (S := S256x2048) hz2]

/-- The last tile: the accumulator gains the tile's share, -/
theorem sout_C (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i)
    (x0 : Vec F S1x256x2048 .f32) (x1 : Vec F S1x2048x256 .f32) (x2 : Vec F S1x2048x256 .f32) (x3 : Vec F S1x256x2048 .f32) (xs0 : Vec F S256x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x256x2048) hz3, View.ld_unit_zero (S := S1x2048x256) hz3, View.ld_unit_zero (S := S256x2048) hz2]

/-- and the block written back is that accumulator under a leading unit axis. -/
theorem out_C (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i)
    (x0 : Vec F S1x256x2048 .f32) (x1 : Vec F S1x2048x256 .f32) (x2 : Vec F S1x2048x256 .f32) (x3 : Vec F S1x256x2048 .f32) (xs0 : Vec F S256x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread,
    View.ld_unit_zero (S := S1x256x2048) hz3, View.ld_unit_zero (S := S1x2048x256) hz3, View.ld_unit_zero (S := S256x2048) hz2,
    View.readCov_unit_zero (S := S256x2048) _ hz2]

end Cert.KernelIdeal.Pieces

end
-- ==== Proof.KerInvariant.lean ====
import proofs.«121033_j25245817766056_1_alg».proof.Proof.KerBlocks
import proofs.«121033_j25245817766056_1_alg».proof.Proof.KerPieces

/-!
# The accumulator after every grid point

After grid point n the carried accumulator holds, at (r, h), the specification's running total over the intermediate
tiles 0 … n % 16, for group n / 64, row (row tile) · 256 + r and column h: a first tile restarts it from zero, every later
tile adds its share to what the point before left (the point before works on the same group and row tile). At a last
tile the block written back is the accumulator under a leading unit axis.
-/

noncomputable section

namespace Cert.KernelIdeal.Inv

open Idealize.ShloMosaic Idealize.ShloMosaic.TcCoe Idealize.ShloMosaic.ValueIdx Idealize.SL.Sem
open Cert.KernelIdeal Cert.KernelIdeal.Gen Cert.GatedProduct Cert.KernelIdeal.Blocks Cert.KernelIdeal.Pieces Cert.KernelIdeal.Pay

variable (m : (ℓ : Loc nD τ sig) → Buf (Elt Ideal) ℓ)

theorem lt512 (t : Fin cfg0.N) : t.val < 512 := lt_of_lt_of_eq t.isLt (show cfg0.N = 512 from N_0)

/-- The running total the accumulator holds after grid point n. -/
def acc (c : Dev nD) (n : ℕ) (hn : n < 512) : Vec Ideal S256x2048 .f32 := fun y =>
  upTo (Xs m c) (Ws m c) (Ds m c) (grp n hn) (rowAt n hn (y 0)) (y 1) (n % 16)

/-- One point's stored value over the point's own blocks: the previous contents plus the point's tile share. -/
theorem step_at (c : Dev nD) (t : Fin cfg0.N) (prev : Vec Ideal S256x2048 .f32) (r : Fin 256) (h : Fin 2048) :
    k0_pay2 (F := Ideal) (iblk m c 0 t) (iblk m c 1 t) (iblk m c 2 t) (iblk m c 3 t) prev (ix2 r h)
      = prev (ix2 r h) + tileSum (Xs m c) (Ws m c) (Ds m c) (grp t.val (lt512 t)) (rowAt t.val (lt512 t) r) h (t.val % 16) :=
  pay2_tile (Xs m c) (Ws m c) (Ds m c) (iblk m c 0 t) (iblk m c 1 t) (iblk m c 2 t) (iblk m c 3 t) prev
    (grp t.val (lt512 t)) (rowAt t.val (lt512 t)) t.val
    (fun r k => blk0_at m c t (lt512 t) 0 r k) (fun k j => blk1_at m c t (lt512 t) 0 k j)
    (fun k j => blk2_at m c t (lt512 t) 0 k j) (fun j h => blk3_at m c t (lt512 t) 0 j h) r h

/-- At a first tile the accumulator is the first tile's share. -/
theorem scratch_first (c : Dev nD) (t : Fin cfg0.N) (h0 : t.val % 16 = 0) :
    (outsAt0 m c t.val t.isLt).2 = acc m c t.val (lt512 t) := by
  have h1 : ¬t.val % 16 = 15 := by omega
  rw [outsAt0_A m c t h0 h1]
  dsimp only
  rw [sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)]
  funext y
  obtain ⟨r, h, rfl⟩ : ∃ (r : Fin 256) (h : Fin 2048), y = ix2 r h := ⟨y 0, y 1, eq_ix2 y⟩
  rw [step_at m c t _ r h, pay1_at, zero_add]
  show tileSum _ _ _ _ _ _ (t.val % 16) = upTo _ _ _ _ _ _ (t.val % 16)
  rw [h0, upTo_zero]

/-- At a later tile the accumulator is what the point before left plus this tile's share. -/
theorem scratch_later (c : Dev nD) (t : Fin cfg0.N) (h0 : ¬t.val % 16 = 0)
    (ih : (outsAt0 m c (t.val - 1) (Nat.lt_of_le_of_lt (Nat.sub_le _ _) t.isLt)).2 = acc m c (t.val - 1) (Nat.lt_of_le_of_lt (Nat.sub_le _ _) (lt512 t))) :
    (outsAt0 m c t.val t.isLt).2 = acc m c t.val (lt512 t) := by
  have hN := lt512 t
  have key : k0_pay2 (F := Ideal) (iblk m c 0 t) (iblk m c 1 t) (iblk m c 2 t) (iblk m c 3 t) (outsAt0 m c (t.val - 1) (Nat.lt_of_le_of_lt (Nat.sub_le _ _) t.isLt)).2 = acc m c t.val hN := by
    funext y
    obtain ⟨r, h, rfl⟩ : ∃ (r : Fin 256) (h : Fin 2048), y = ix2 r h := ⟨y 0, y 1, eq_ix2 y⟩
    rw [step_at m c t _ r h, ih]
    show upTo (Xs m c) (Ws m c) (Ds m c) (grp (t.val - 1) (Nat.lt_of_le_of_lt (Nat.sub_le _ _) hN))
          (rowAt (t.val - 1) (Nat.lt_of_le_of_lt (Nat.sub_le _ _) hN) r) h ((t.val - 1) % 16)
        + tileSum (Xs m c) (Ws m c) (Ds m c) (grp t.val hN) (rowAt t.val hN r) h (t.val % 16)
      = upTo (Xs m c) (Ws m c) (Ds m c) (grp t.val hN) (rowAt t.val hN r) h (t.val % 16)
    have e1 : grp (t.val - 1) (Nat.lt_of_le_of_lt (Nat.sub_le _ _) hN) = grp t.val hN :=
      Fin.ext (by show (t.val - 1) / 64 = t.val / 64; omega)
    have e2 : rowAt (t.val - 1) (Nat.lt_of_le_of_lt (Nat.sub_le _ _) hN) r = rowAt t.val hN r :=
      Fin.ext (by show (t.val - 1) / 16 % 4 * 256 + r.val = t.val / 16 % 4 * 256 + r.val; omega)
    have e3 : t.val % 16 = (t.val - 1) % 16 + 1 := by omega
    rw [e1, e2, e3, upTo_succ]
  by_cases h1 : t.val % 16 = 15
  · rw [outsAt0_C m c t h0 h1]
    dsimp only
    rw [sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
    exact key
  · rw [outsAt0_B m c t h0 h1]
    dsimp only
    rw [sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2]
    exact key

/-- The accumulator after every grid point, by induction on the point. -/
theorem scratch_eq (c : Dev nD) : ∀ (n : ℕ) (h : n < cfg0.N),
    (outsAt0 m c n h).2 = acc m c n (lt_of_lt_of_eq h (show cfg0.N = 512 from N_0)) := by
  intro n
  induction n with
  | zero => intro h; exact scratch_first m c ⟨0, h⟩ rfl
  | succ n ih =>
    intro h
    by_cases h0 : (n + 1) % 16 = 0
    · exact scratch_first m c ⟨n + 1, h⟩ h0
    · exact scratch_later m c ⟨n + 1, h⟩ h0 (ih (Nat.lt_of_succ_lt h))

/-- At a last tile the block written back is the accumulator under a leading unit axis. -/
theorem out_last (c : Dev nD) (t : Fin cfg0.N) (h1 : t.val % 16 = 15) :
    (outsAt0 m c t.val t.isLt).1 = k0_pay3 (F := Ideal) (acc m c t.val (lt512 t)) := by
  have h0 : ¬t.val % 16 = 0 := by omega
  have hs := scratch_eq m c t.val t.isLt
  rw [outsAt0_C m c t h0 h1] at hs ⊢
  dsimp only at hs ⊢
  rw [sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2] at hs
  rw [out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, hs]

end Cert.KernelIdeal.Inv

end
-- ==== Proof.KerFinal.lean ====
import proofs.«121033_j25245817766056_1_alg».proof.Proof.KerInvariant

/-!
# The array the region leaves, and the program's result

Each block of the result is written back once, at the last intermediate tile of its (group, row tile); what is written is
the accumulator after all 16 tiles, that is the specification's whole sum. The 32 written blocks tile the [8, 1024, 2048]
array, so the region leaves the specification's array, and the program returns it regrouped to [8192, 2048].
-/

noncomputable section

namespace Cert.KernelIdeal.Final

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.GatedProduct Cert.KernelIdeal.Blocks Cert.KernelIdeal.Pay Cert.KernelIdeal.Inv

variable (m : (ℓ : Loc nD τ sig) → Buf (Elt Ideal) ℓ) (ρ : Dev nD → PrngReg)

/-- The specification's array of the rows and weights the program was launched with. -/
abbrev result (c : Dev nD) : SX.Idx → Ideal .f32 := out (Xs m c) (Ws m c) (Ds m c)

/-- What a last tile writes back is its block of the specification's array. -/
theorem flushed_eq (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  show (cfg0.win 4).cut (grid0.coords t) ((dats m 0 c).after 4 t) = _
  rw [after0_4, out_last m c t h1]
  funext y
  obtain ⟨u, r, h, rfl⟩ : ∃ (u : Fin 1) (r : Fin 256) (h : Fin 2048), y = ix3 u r h := ⟨y 0, y 1, y 2, eq_ix3 y⟩
  rw [blk4_read t (lt512 t) (result m c) u r h]
  show k0_pay3 (F := Ideal) (acc m c t.val (lt512 t)) (ix3 u r h) = _
  rw [pay3_at]
  show upTo (Xs m c) (Ws m c) (Ds m c) (grp t.val (lt512 t)) (rowAt t.val (lt512 t) r) h (t.val % 16)
    = outAt (Xs m c) (Ws m c) (Ds m c) (grp t.val (lt512 t)) (rowAt t.val (lt512 t) r) h
  rw [h1, upTo_last]

/-- An index of the array is in grid point t's block iff each coordinate is in the block's range on its axis. -/
theorem mem_blk4 (t : Fin cfg0.N) (i : S8x1024x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v3).slice (win0_4.rect t)).set ↔ _
  rw [View.set_slice_whole, Rect.mem_set_unit]
  exact Iff.rfl

/-- Every index is in the block written back at the last tile of its group and row tile. -/
theorem cover (i : S8x1024x2048.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hlt : (i 0).val * 64 + (i 1).val / 256 * 16 + 15 < cfg0.N := by
    rw [show cfg0.N = 512 from N_0]; omega
  refine ⟨⟨(i 0).val * 64 + (i 1).val / 256 * 16 + 15, hlt⟩,
    (flush0_4 _).mpr (by show ((i 0).val * 64 + (i 1).val / 256 * 16 + 15) % 16 = 15; omega), ?_⟩
  rw [mem_blk4]
  obtain ⟨-, -, -, -, -, -, -, -, -, -, -, -, e0, e1, e2⟩ := idx_facts ⟨(i 0).val * 64 + (i 1).val / 256 * 16 + 15, hlt⟩
  dsimp only at e0 e1 e2
  intro a
  match a with
  | ⟨0, _⟩ =>
    show win0_4.index _ (0 : Fin 3) * 1 ≤ (i 0).val ∧ (i 0).val < win0_4.index _ (0 : Fin 3) * 1 + 1
    rw [e0]; omega
  | ⟨1, _⟩ =>
    show win0_4.index _ (1 : Fin 3) * 256 ≤ (i 1).val ∧ (i 1).val < win0_4.index _ (1 : Fin 3) * 256 + 256
    rw [e1]; omega
  | ⟨2, _⟩ =>
    show win0_4.index _ (2 : Fin 3) * 2048 ≤ (i 2).val ∧ (i 2).val < win0_4.index _ (2 : Fin 3) * 2048 + 2048
    rw [e2]; omega

/-- So the region leaves the specification's array. -/
theorem final4 (c : Dev nD) : (dats m 0 c).arrAt 4 cfg0.N = result m c :=
  (dats m 0 c).arrAt_eq_of_cover 4 (result m c) (fun t hf => flushed_eq m c t hf) cover

/-- The program's result: that array regrouped to [8192, 2048]. -/
theorem tail_eq (c : Dev nD) : Pipeline.afterTail₀ cfgs (dats m) 0 (V0 m) [hostOps1] c main_v4
    = shapeCast S8192x2048 (result m c) shapeCasts_S8x1024x2048_S8192x2048 := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v3) = result m c :=
    (Pipeline.withArrays_arr spec0 launch0.win.arr_inj c _ _ 4).trans (final4 m c)
  rw [hw]
  rfl

/-- The run, read: the result at the specification's array regrouped, the arguments unchanged. -/
theorem run : θ_run defs (onTc (τ := τ) (main (F := Ideal))) ⟨m, fun _ => 0, ρ⟩ fun r => ∀ c : Dev nD,
      r.2.mem ((c.tc : Thread nD τ).loc main_v4) = shapeCast S8192x2048 (result m c) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c)))⟩)
    (run_main m ρ)

end Cert.KernelIdeal.Final

end
-- ==== Proof.lean ====
/-
  Eight independent groups of 1024 rows each go through a gated two-layer product: out = (up · (gate · σ(gate))) · D,
  where gate and up are the two column halves of the rows' product with the first weight, σ(g) = 1 / (1 + e^(-g)), and D
  is the second weight.

  One program forms, for every (group, tile of 256 rows), the sum over the 4096 intermediate positions in 16 consecutive
  tiles of 256, carrying an accumulator that restarts from zero at the first tile and is written out after the last; its
  matrix products round their operands to a shorter format on the way in. The other program forms the two batched
  products whole. Read on the extended reals — every operation exact, a change of float format the identity — both
  compute the same array, entry by entry: the logistic function is by definition 1 / (1 + e^(-g)), each matrix product into
  a zero accumulator is the plain sum over the contracted axis, and a sum taken tile by tile is the whole sum, because
  addition on the extended reals is commutative and associative whatever the terms (no finiteness is used, so the
  precondition is never opened). Both programs regroup the rows to [8, 1024, 2048] at the start and the result back to
  [8192, 2048] at the end; those two regroupings are carried along unopened.

  The modules: Spec (the array, entry by entry, and the tile-by-tile running total), RefSide (the whole-product program
  computes it), KerPayload (one grid point's stored values at an index), KerStep (one point adds one tile's share),
  KerPieces (what each kind of point leaves), KerBlocks (the blocks a point is handed), KerInvariant (the accumulator
  after every point, by induction), KerFinal (the written-back blocks tile the array; the program's result).
-/
import proofs.«121033_j25245817766056_1_alg».proof.Defs
import proofs.«121033_j25245817766056_1_alg».proof.Proof.Gen.Kernel
import proofs.«121033_j25245817766056_1_alg».proof.Proof.Gen.Kernel.Skeleton
import proofs.«121033_j25245817766056_1_alg».proof.Proof.Gen.Kernel.Launch
import proofs.«121033_j25245817766056_1_alg».proof.Proof.Gen.Kernel.Points
import proofs.«121033_j25245817766056_1_alg».proof.Proof.Gen.Kernel.Frame
import proofs.«121033_j25245817766056_1_alg».proof.Proof.Gen.KernelIdeal
import proofs.«121033_j25245817766056_1_alg».proof.Proof.Gen.KernelIdeal.Skeleton
import proofs.«121033_j25245817766056_1_alg».proof.Proof.Gen.KernelIdeal.Launch
import proofs.«121033_j25245817766056_1_alg».proof.Proof.Gen.KernelIdeal.Points
import proofs.«121033_j25245817766056_1_alg».proof.Proof.Gen.KernelIdeal.Frame
import proofs.«121033_j25245817766056_1_alg».proof.Proof.Gen.ReferenceIdeal
import proofs.«121033_j25245817766056_1_alg».proof.Proof.Gen.Pre_finite_inputs
import proofs.«121033_j25245817766056_1_alg».proof.Proof.Gen.ReferenceIdeal.Run
import proofs.«121033_j25245817766056_1_alg».proof.Proof.Gen.ReferenceIdeal.Read
import proofs.«121033_j25245817766056_1_alg».proof.Proof.RefSide
import proofs.«121033_j25245817766056_1_alg».proof.Proof.KerFinal
import Idealize.ShloMosaic.Adequacy
import Idealize.ShloMosaic.Init

noncomputable section

namespace Cert.Proof

open Idealize.ShloMosaic Idealize.SL.Sem

/-- The tiled program as printed runs, and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- So does the whole-product program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the tiled program and its reading on the extended reals. -/
theorem preserves : Cert.preserves_Kernel_KernelIdeal := trivial

/-- On the extended reals both programs end at the specification's array of the shared arguments, regrouped to
    [8192, 2048]. -/
theorem algebraic : Cert.algebraic_KernelIdeal_ReferenceIdeal := by
  intro m ρ m' ρ' _ hagree
  refine ⟨fun c => shapeCast Cert.KernelIdeal.S8192x2048 (Cert.KernelIdeal.Final.result m c)
      Cert.KernelIdeal.Facts₀.shapeCasts_S8x1024x2048_S8192x2048, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  unfold Cert.ReferenceIdeal.Read.val_main_v7
  rw [Cert.ReferenceIdeal.RefValue.v6_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
